-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S512x1024 : Shape := ⟨2, ![512, 1024]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 27
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .i1⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S8192x4096, .bf16⟩
  | .hbm, ⟨26, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KRegion0.lean ====
import proofs.«132240_j4930622456479_2_alg».proof.Proof.Gen.Kernel.Launch
import proofs.«132240_j4930622456479_2_alg».proof.Proof.Gen.Kernel.Skeleton
import proofs.«132240_j4930622456479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pallas_call (pipeline 0) of `Kernel`'s @main, at a parameter `V`

The pointwise region: a grid of 8 x 4 points, three input windows (blocks of 512 x 1024 f32) and one output window
(a block of 512 x 1024 bf16), every window fetched or written back at every point. Everything here is stated at a
PARAMETER `V` — the TensorCore's buffer contents when the region is entered — and at any float model `F`:
each window's block at a point, the output buffer after the body as a function of the three input blocks, the
body's triple, the pipeline's proof data and the body obligation the launch theorems ask for. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body loads and stores through: the whole 512 x 1024 block. -/
abbrev r0_0 : Rect S512x1024 := Rect.unit (s := S512x1024) ![0, 0] S512x1024.size inb_S512x1024_S512x1024_0_0

/-! ## What the body leaves in the output window's buffer -/

/-- Window 3's staging buffer after the body, from the three input windows' blocks: its one store as a piece. -/
def out0_3 (x0 : Vec F S512x1024 .f32) (x1 : Vec F S512x1024 .f32) (x2 : Vec F S512x1024 .f32) : Vec F S512x1024 .bf16 :=
  View.canon [⟨r0_0, k0_pay1 (View.ld x0 r0_0) (View.ld x1 r0_0) (View.ld x2 r0_0)⟩]

/-- The one store is of the whole block, so it covers the buffer. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole)
    (x0 : Vec F S512x1024 .f32) (x1 : Vec F S512x1024 .f32) (x2 : Vec F S512x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__reparam_kernel i arg2 harg2 arg3 harg3 arg4 harg4 arg5 harg5) K := by
  simp only [cc0__reparam_kernel_eq_skeleton]; unfold cc0__reparam_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRuns1.lean ====
/-
  The matrix-product region (the second kernel launch), the part its three control cases share.

  The grid is 8 x 4 x 4 over (i, j, k); position t has k = t mod 4. The body keeps a 1024 x 1024 accumulator in a
  scratch buffer of its own: at k = 0 it first stores zeros there; at every k it adds the product of the point's two
  input blocks; at k = 3 it also stores accumulator + bias row into the output block. So the output window is stored
  only at the positions t with t mod 4 = 3 (it is idle, and not written back, elsewhere), and the scratch carries a
  value from each position to the next.

  Stated here, for any float instance and any contents V of the buffers when the region is entered: a window's block
  at a position; that an input window's staging buffer holds its block at every position, fetched there or not; the
  two branch conditions in closed form over the grid; where the output window is idle; the names of the staging and
  scratch memrefs; and the class invariant with the scratch singled out.
-/
import proofs.«132240_j4930622456479_2_alg».proof.Proof.Gen.Kernel.Launch
import proofs.«132240_j4930622456479_2_alg».proof.Proof.Gen.Kernel.Skeleton
import proofs.«132240_j4930622456479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every position. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every position. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds its block at every position: it is fetched only where k = 0, and its block
    index (0, j) does not move with k. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (zero the accumulator) is taken where k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store accumulator + bias) is taken where k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The other scoped buffers no window of this region stages (the first region's eight staging buffers), each whole at
    some contents. -/
abbrev others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KRun1A.lean ====
/-
  The matrix-product body at a position with k = 0: the first branch is taken (the accumulator is zeroed), the second
  is not (nothing is stored into the output block, which is handed back as found). The accumulator ends holding the
  two stores' pieces, last first; they are found by running the body.
-/
import proofs.«132240_j4930622456479_2_alg».proof.Proof.KRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block (none) and in the accumulator, with the body's triple on
    whole memrefs: the inputs at their contents and the output block at contents `xi3` come back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KRun1B.lean ====
/-
  The matrix-product body at a position with k = 1 or 2: neither branch is taken. The accumulator is read before it is
  stored into, so it enters at the contents the position before left; the output block is handed back as found.
-/
import proofs.«132240_j4930622456479_2_alg».proof.Proof.KRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block (none) and in the accumulator, with the body's triple on
    whole memrefs, the accumulator entering at `xs0`. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KRun1C.lean ====
/-
  The matrix-product body at a position with k = 3: the first branch is not taken, the second is. The accumulator
  enters at the contents the position before left and is stored into once; the output block is stored into once
  (accumulator + bias row) and comes back with that piece written.
-/
import proofs.«132240_j4930622456479_2_alg».proof.Proof.KRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block and in the accumulator, with the body's triple on whole
    memrefs, the accumulator entering at `xs0` and the output block at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KRegion1.lean ====
/-
  The matrix-product region: what the accumulator and the output block hold after each position, the region's proof
  data, and the body obligation at every position — for any float instance and any contents V of the buffers when the
  region is entered.

  After position n the accumulator holds: at k = 0 the zero store followed by one accumulation of the position's block
  product; at k > 0 one accumulation over what position n - 1 left. The output block is stored only at k = 3. The
  region's invariant before position n is, for n = 0, every scoped buffer at anything; for n > 0 the accumulator at
  what position n - 1 left (the other scoped buffers at anything). The body obligation is proved by cases on n mod 4.
-/
import proofs.«132240_j4930622456479_2_alg».proof.Proof.KRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output block: its pieces read back (none: a placeholder nothing consults, the window being idle and not written back there). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block: its pieces read back (none: a placeholder nothing consults, the window being idle and not written back there). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At k = 3 the one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block: its pieces read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each position -/

/-- After the body at position `n`: (the output block, the accumulator). The case is the one `n mod 4` selects, run on
    the position's memrefs and input blocks, the accumulator entering at what position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: for `n = 0` every scoped buffer no window stages at anything; afterwards the accumulator at what
    position `n - 1` left, the other such buffers at anything; beside the generator register at some state. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at position `t` each input's buffer at its block and the output's
    at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic position -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any position: the inputs' memrefs hold their blocks; `t mod 4` says which case the position is in; the
    invariant hands the body the accumulator at what the position before left (at anything at the first position) and
    takes it back at this position's contents; the output block is handed back untouched where the window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first position. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HA7, HA8, HS0⟩, Hg⟩
  isplitl [HA1 HA2 HA3 HA4 HA5 HA6 HA7 HA8 HS0]
  · isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KRun.lean ====
/-
  The whole program as a run of four segments: the weight region, the two host stretches (the bias and the cast of the
  activations), the matrix-product region — for any float instance.

  The buffers' contents at each boundary are a fold from the launch memory: a region leaves its arrays at what its
  write-backs leave and every other buffer as entered; a host stretch leaves what its operations compute. Every
  pipeline's proof data is taken at its region's entry contents. The run ends with every unscoped buffer at the last
  boundary's contents; the argument arrays, which no segment writes, are read back through the fold to the launch
  memory, which is the frame claim.
-/
import proofs.«132240_j4930622456479_2_alg».proof.Proof.KRegion0
import proofs.«132240_j4930622456479_2_alg».proof.Proof.KRegion1
import proofs.«132240_j4930622456479_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the weight region's entry). -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At the weight region's exit. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VX0 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VX0 m ρ c (Pipeline.arrRef spec0 w) :=
  (W1_arr m ρ c w).symm
theorem hrest0 (c : Dev nD) : ∀ b, b ∉ Finset.univ.image (Pipeline.arrRef spec0) → VX0 m ρ c b = VE0 m ρ c b :=
  fun b hb => W1_of_ne m ρ c b fun w e => hb (Finset.mem_image.mpr ⟨w, Finset.mem_univ _, e⟩)

/-- After the softplus stretch, and after the stretch that finishes the bias and casts the activations (the
    matrix-product region's entry). -/
abbrev W2 : Dev nD → Valuation τ sig (Elt F) := fun c => StableHlo.after hostOps1 (W1 m ρ c)
abbrev W3 : Dev nD → Valuation τ sig (Elt F) := fun c => StableHlo.after hostOps1_1 (W2 m ρ c)
abbrev VE1 : (c : Dev nD) → (b : Ref sig .tc) → Buf (Elt F) ((c : Thread nD τ).loc b) := fun c b => W3 m ρ c b
/-- At the matrix-product region's exit. -/
def W4 (c : Dev nD) : Valuation τ sig (Elt F) :=
  Pipeline.withArrays spec1 c (W3 m ρ c) fun w => (dat1 (VE1 m ρ) c).arrAt w cfg1.N
theorem W4_arr (c : Dev nD) (w : Fin cfg1.W) :
    W4 m ρ c (Proc.devRef .tc (Pipeline.arrRef spec1 w)) = (dat1 (VE1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VX1 : (c : Dev nD) → (b : Ref sig .tc) → Buf (Elt F) ((c : Thread nD τ).loc b) := fun c b => W4 m ρ c b
theorem hF1 (c : Dev nD) (w : Fin cfg1.W) : (dat1 (VE1 m ρ) c).arrAt w cfg1.N = VX1 m ρ c (Pipeline.arrRef spec1 w) :=
  (W4_arr m ρ c w).symm
theorem hrest1 (c : Dev nD) : ∀ b, b ∉ Finset.univ.image (Pipeline.arrRef spec1) → VX1 m ρ c b = VE1 m ρ c b :=
  fun b hb => W4_of_ne m ρ c b fun w e => hb (Finset.mem_image.mpr ⟨w, Finset.mem_univ _, e⟩)

/-! ## The argument arrays end as launched -/

/-- A buffer that is no array of the matrix-product region and that neither host stretch writes holds at the end what
    the weight region left in it. -/
theorem W4_keep (c : Dev nD) (b : Ref sig .tc) (h4 : ∀ w, Pipeline.arrRef spec1 w ≠ b) (h3 : b ∉ hostOps1_1_W) (h2 : b ∉ hostOps1_W) :
    W4 m ρ c (Proc.devRef .tc b) = W1 m ρ c (Proc.devRef .tc b) :=
  (W4_of_ne m ρ c b h4).trans ((StableHlo.after_of_writes_sub hostOps1_1 _ hostOps1_1_writes h3).trans
    (StableHlo.after_of_writes_sub hostOps1 _ hostOps1_writes h2))

theorem W4_main_arg0 (c : Dev nD) : W4 m ρ c (Proc.devRef .tc main_arg0) = m ((c : Thread nD τ).loc main_arg0) :=
  (W4_keep m ρ c main_arg0 (by decide) (by decide) (by decide)).trans ((W1_of_ne m ρ c main_arg0 (by decide)).trans rfl)
theorem W4_main_arg1 (c : Dev nD) : W4 m ρ c (Proc.devRef .tc main_arg1) = m ((c : Thread nD τ).loc main_arg1) :=
  (W4_keep m ρ c main_arg1 (by decide) (by decide) (by decide)).trans ((W1_arr m ρ c 0).trans ((((dat0 (VE0 m ρ) c).arrAt_in 0 rfl _).trans (A_eq0 (VE0 m ρ) c 0)).trans rfl))
theorem W4_main_arg2 (c : Dev nD) : W4 m ρ c (Proc.devRef .tc main_arg2) = m ((c : Thread nD τ).loc main_arg2) :=
  (W4_keep m ρ c main_arg2 (by decide) (by decide) (by decide)).trans ((W1_arr m ρ c 1).trans ((((dat0 (VE0 m ρ) c).arrAt_in 1 rfl _).trans (A_eq0 (VE0 m ρ) c 1)).trans rfl))
theorem W4_main_arg3 (c : Dev nD) : W4 m ρ c (Proc.devRef .tc main_arg3) = m ((c : Thread nD τ).loc main_arg3) :=
  (W4_keep m ρ c main_arg3 (by decide) (by decide) (by decide)).trans ((W1_of_ne m ρ c main_arg3 (by decide)).trans rfl)
theorem W4_main_arg4 (c : Dev nD) : W4 m ρ c (Proc.devRef .tc main_arg4) = m ((c : Thread nD τ).loc main_arg4) :=
  (W4_keep m ρ c main_arg4 (by decide) (by decide) (by decide)).trans ((W1_of_ne m ρ c main_arg4 (by decide)).trans rfl)
theorem W4_main_arg5 (c : Dev nD) : W4 m ρ c (Proc.devRef .tc main_arg5) = m ((c : Thread nD τ).loc main_arg5) :=
  (W4_keep m ρ c main_arg5 (by decide) (by decide) (by decide)).trans ((W1_arr m ρ c 2).trans ((((dat0 (VE0 m ρ) c).arrAt_in 2 rfl _).trans (A_eq0 (VE0 m ρ) c 2)).trans rfl))
theorem W4_main_arg6 (c : Dev nD) : W4 m ρ c (Proc.devRef .tc main_arg6) = m ((c : Thread nD τ).loc main_arg6) :=
  (W4_keep m ρ c main_arg6 (by decide) (by decide) (by decide)).trans ((W1_of_ne m ρ c main_arg6 (by decide)).trans rfl)

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE1 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left with its arrays at
    what the write-backs leave and every other buffer as entered; the generator register into the region's invariant and out;
    nothing owed; no semaphore of the kernel's own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with its arrays at
    what the write-backs leave and every other buffer as entered; the generator register into the region's invariant and out;
    nothing owed; no semaphore of the kernel's own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VE1 m ρ) c
    unfold Pipeline.ΦA at h
    rw [show (pdats m ρ 1 c).Φ 0 = (dat1 (VE1 m ρ) c).Φ 0 from rfl]
    iintro ⟨Hp, -, Hr⟩
    iapply h
    isplitl [Hr]; · iexact Hr
    iexact Hp
  hout c := by
    rw [Pipeline.ownSems0_none]
    have h := hout1 (VE1 m ρ) c
    unfold Pipeline.ΦA at h
    rw [show (pdats m ρ 1 c).Φ (Fin.last _) = (dat1 (VE1 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdats m ρ) () defs₀ 𝒱H LH lvH) :=
  [ .region (reg0 m ρ),
    .host (hseg hostOps1 hostOps1_sub hostOps1_fresh (W1 m ρ)),
    .host (hseg hostOps1_1 hostOps1_1_sub hostOps1_1_fresh (W2 m ρ)),
    .region (reg1 m ρ) ]
theorem main_run (c : Dev nD) : main (F := F) c = Pipeline.Seg.run (segsH m ρ) := (main_chain c).trans (by chain_rfl)

set_option backward.isDefEq.respectTransparency.types false in
/-- From any memory with zero counters every weakly fair execution of the program terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim, at any float instance: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KIRegion0.lean ====
import proofs.«132240_j4930622456479_2_alg».proof.Proof.Gen.KernelIdeal.Launch
import proofs.«132240_j4930622456479_2_alg».proof.Proof.Gen.KernelIdeal.Skeleton
import proofs.«132240_j4930622456479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pallas_call (pipeline 0) of `KernelIdeal`'s @main, at a parameter `V`

The pointwise region: a grid of 8 x 4 points, three input windows (blocks of 512 x 1024 f32) and one output window
(a block of 512 x 1024 bf16), every window fetched or written back at every point. Everything here is stated at a
PARAMETER `V` — the TensorCore's buffer contents when the region is entered — and at any float model `F`:
each window's block at a point, the output buffer after the body as a function of the three input blocks, the
body's triple, the pipeline's proof data and the body obligation the launch theorems ask for. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body loads and stores through: the whole 512 x 1024 block. -/
abbrev r0_0 : Rect S512x1024 := Rect.unit (s := S512x1024) ![0, 0] S512x1024.size inb_S512x1024_S512x1024_0_0

/-! ## What the body leaves in the output window's buffer -/

/-- Window 3's staging buffer after the body, from the three input windows' blocks: its one store as a piece. -/
def out0_3 (x0 : Vec F S512x1024 .f32) (x1 : Vec F S512x1024 .f32) (x2 : Vec F S512x1024 .f32) : Vec F S512x1024 .bf16 :=
  View.canon [⟨r0_0, k0_pay1 (View.ld x0 r0_0) (View.ld x1 r0_0) (View.ld x2 r0_0)⟩]

/-- The one store is of the whole block, so it covers the buffer. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole)
    (x0 : Vec F S512x1024 .f32) (x1 : Vec F S512x1024 .f32) (x2 : Vec F S512x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__reparam_kernel i arg2 harg2 arg3 harg3 arg4 harg4 arg5 harg5) K := by
  simp only [cc0__reparam_kernel_eq_skeleton]; unfold cc0__reparam_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRuns1.lean ====
/-
  The matrix-product region (the second kernel launch), the part its three control cases share.

  The grid is 8 x 4 x 4 over (i, j, k); position t has k = t mod 4. The body keeps a 1024 x 1024 accumulator in a
  scratch buffer of its own: at k = 0 it first stores zeros there; at every k it adds the product of the point's two
  input blocks; at k = 3 it also stores accumulator + bias row into the output block. So the output window is stored
  only at the positions t with t mod 4 = 3 (it is idle, and not written back, elsewhere), and the scratch carries a
  value from each position to the next.

  Stated here, for any float instance and any contents V of the buffers when the region is entered: a window's block
  at a position; that an input window's staging buffer holds its block at every position, fetched there or not; the
  two branch conditions in closed form over the grid; where the output window is idle; the names of the staging and
  scratch memrefs; and the class invariant with the scratch singled out.
-/
import proofs.«132240_j4930622456479_2_alg».proof.Proof.Gen.KernelIdeal.Launch
import proofs.«132240_j4930622456479_2_alg».proof.Proof.Gen.KernelIdeal.Skeleton
import proofs.«132240_j4930622456479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every position. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every position. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds its block at every position: it is fetched only where k = 0, and its block
    index (0, j) does not move with k. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (zero the accumulator) is taken where k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store accumulator + bias) is taken where k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The other scoped buffers no window of this region stages (the first region's eight staging buffers), each whole at
    some contents. -/
abbrev others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KIRun1A.lean ====
/-
  The matrix-product body at a position with k = 0: the first branch is taken (the accumulator is zeroed), the second
  is not (nothing is stored into the output block, which is handed back as found). The accumulator ends holding the
  two stores' pieces, last first; they are found by running the body.
-/
import proofs.«132240_j4930622456479_2_alg».proof.Proof.KIRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block (none) and in the accumulator, with the body's triple on
    whole memrefs: the inputs at their contents and the output block at contents `xi3` come back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIRun1B.lean ====
/-
  The matrix-product body at a position with k = 1 or 2: neither branch is taken. The accumulator is read before it is
  stored into, so it enters at the contents the position before left; the output block is handed back as found.
-/
import proofs.«132240_j4930622456479_2_alg».proof.Proof.KIRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block (none) and in the accumulator, with the body's triple on
    whole memrefs, the accumulator entering at `xs0`. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIRun1C.lean ====
/-
  The matrix-product body at a position with k = 3: the first branch is not taken, the second is. The accumulator
  enters at the contents the position before left and is stored into once; the output block is stored into once
  (accumulator + bias row) and comes back with that piece written.
-/
import proofs.«132240_j4930622456479_2_alg».proof.Proof.KIRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block and in the accumulator, with the body's triple on whole
    memrefs, the accumulator entering at `xs0` and the output block at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIRegion1.lean ====
/-
  The matrix-product region: what the accumulator and the output block hold after each position, the region's proof
  data, and the body obligation at every position — for any float instance and any contents V of the buffers when the
  region is entered.

  After position n the accumulator holds: at k = 0 the zero store followed by one accumulation of the position's block
  product; at k > 0 one accumulation over what position n - 1 left. The output block is stored only at k = 3. The
  region's invariant before position n is, for n = 0, every scoped buffer at anything; for n > 0 the accumulator at
  what position n - 1 left (the other scoped buffers at anything). The body obligation is proved by cases on n mod 4.
-/
import proofs.«132240_j4930622456479_2_alg».proof.Proof.KIRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output block: its pieces read back (none: a placeholder nothing consults, the window being idle and not written back there). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block: its pieces read back (none: a placeholder nothing consults, the window being idle and not written back there). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At k = 3 the one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block: its pieces read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each position -/

/-- After the body at position `n`: (the output block, the accumulator). The case is the one `n mod 4` selects, run on
    the position's memrefs and input blocks, the accumulator entering at what position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: for `n = 0` every scoped buffer no window stages at anything; afterwards the accumulator at what
    position `n - 1` left, the other such buffers at anything; beside the generator register at some state. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at position `t` each input's buffer at its block and the output's
    at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic position -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any position: the inputs' memrefs hold their blocks; `t mod 4` says which case the position is in; the
    invariant hands the body the accumulator at what the position before left (at anything at the first position) and
    takes it back at this position's contents; the output block is handed back untouched where the window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA1 HA2 HA3 HA4 HA5 HA6 HA7 HA8 HS0 Hg]
        · isplitl [HA1 HA2 HA3 HA4 HA5 HA6 HA7 HA8 HS0]
          · isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first position. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HA7, HA8, HS0⟩, Hg⟩
  isplitl [HA1 HA2 HA3 HA4 HA5 HA6 HA7 HA8 HS0]
  · isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KIRun.lean ====
/-
  The whole program as a run of four segments: the weight region, the two host stretches (the bias and the cast of the
  activations), the matrix-product region — for any float instance.

  The buffers' contents at each boundary are a fold from the launch memory: a region leaves its arrays at what its
  write-backs leave and every other buffer as entered; a host stretch leaves what its operations compute. Every
  pipeline's proof data is taken at its region's entry contents. The run ends with every unscoped buffer at the last
  boundary's contents; the argument arrays, which no segment writes, are read back through the fold to the launch
  memory, which is the frame claim.
-/
import proofs.«132240_j4930622456479_2_alg».proof.Proof.KIRegion0
import proofs.«132240_j4930622456479_2_alg».proof.Proof.KIRegion1
import proofs.«132240_j4930622456479_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the weight region's entry). -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At the weight region's exit. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VX0 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VX0 m ρ c (Pipeline.arrRef spec0 w) :=
  (W1_arr m ρ c w).symm
theorem hrest0 (c : Dev nD) : ∀ b, b ∉ Finset.univ.image (Pipeline.arrRef spec0) → VX0 m ρ c b = VE0 m ρ c b :=
  fun b hb => W1_of_ne m ρ c b fun w e => hb (Finset.mem_image.mpr ⟨w, Finset.mem_univ _, e⟩)

/-- After the softplus stretch, and after the stretch that finishes the bias and casts the activations (the
    matrix-product region's entry). -/
abbrev W2 : Dev nD → Valuation τ sig (Elt F) := fun c => StableHlo.after hostOps1 (W1 m ρ c)
abbrev W3 : Dev nD → Valuation τ sig (Elt F) := fun c => StableHlo.after hostOps1_1 (W2 m ρ c)
abbrev VE1 : (c : Dev nD) → (b : Ref sig .tc) → Buf (Elt F) ((c : Thread nD τ).loc b) := fun c b => W3 m ρ c b
/-- At the matrix-product region's exit. -/
def W4 (c : Dev nD) : Valuation τ sig (Elt F) :=
  Pipeline.withArrays spec1 c (W3 m ρ c) fun w => (dat1 (VE1 m ρ) c).arrAt w cfg1.N
theorem W4_arr (c : Dev nD) (w : Fin cfg1.W) :
    W4 m ρ c (Proc.devRef .tc (Pipeline.arrRef spec1 w)) = (dat1 (VE1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VX1 : (c : Dev nD) → (b : Ref sig .tc) → Buf (Elt F) ((c : Thread nD τ).loc b) := fun c b => W4 m ρ c b
theorem hF1 (c : Dev nD) (w : Fin cfg1.W) : (dat1 (VE1 m ρ) c).arrAt w cfg1.N = VX1 m ρ c (Pipeline.arrRef spec1 w) :=
  (W4_arr m ρ c w).symm
theorem hrest1 (c : Dev nD) : ∀ b, b ∉ Finset.univ.image (Pipeline.arrRef spec1) → VX1 m ρ c b = VE1 m ρ c b :=
  fun b hb => W4_of_ne m ρ c b fun w e => hb (Finset.mem_image.mpr ⟨w, Finset.mem_univ _, e⟩)

/-! ## The argument arrays end as launched -/

/-- A buffer that is no array of the matrix-product region and that neither host stretch writes holds at the end what
    the weight region left in it. -/
theorem W4_keep (c : Dev nD) (b : Ref sig .tc) (h4 : ∀ w, Pipeline.arrRef spec1 w ≠ b) (h3 : b ∉ hostOps1_1_W) (h2 : b ∉ hostOps1_W) :
    W4 m ρ c (Proc.devRef .tc b) = W1 m ρ c (Proc.devRef .tc b) :=
  (W4_of_ne m ρ c b h4).trans ((StableHlo.after_of_writes_sub hostOps1_1 _ hostOps1_1_writes h3).trans
    (StableHlo.after_of_writes_sub hostOps1 _ hostOps1_writes h2))

theorem W4_main_arg0 (c : Dev nD) : W4 m ρ c (Proc.devRef .tc main_arg0) = m ((c : Thread nD τ).loc main_arg0) :=
  (W4_keep m ρ c main_arg0 (by decide) (by decide) (by decide)).trans ((W1_of_ne m ρ c main_arg0 (by decide)).trans rfl)
theorem W4_main_arg1 (c : Dev nD) : W4 m ρ c (Proc.devRef .tc main_arg1) = m ((c : Thread nD τ).loc main_arg1) :=
  (W4_keep m ρ c main_arg1 (by decide) (by decide) (by decide)).trans ((W1_arr m ρ c 0).trans ((((dat0 (VE0 m ρ) c).arrAt_in 0 rfl _).trans (A_eq0 (VE0 m ρ) c 0)).trans rfl))
theorem W4_main_arg2 (c : Dev nD) : W4 m ρ c (Proc.devRef .tc main_arg2) = m ((c : Thread nD τ).loc main_arg2) :=
  (W4_keep m ρ c main_arg2 (by decide) (by decide) (by decide)).trans ((W1_arr m ρ c 1).trans ((((dat0 (VE0 m ρ) c).arrAt_in 1 rfl _).trans (A_eq0 (VE0 m ρ) c 1)).trans rfl))
theorem W4_main_arg3 (c : Dev nD) : W4 m ρ c (Proc.devRef .tc main_arg3) = m ((c : Thread nD τ).loc main_arg3) :=
  (W4_keep m ρ c main_arg3 (by decide) (by decide) (by decide)).trans ((W1_of_ne m ρ c main_arg3 (by decide)).trans rfl)
theorem W4_main_arg4 (c : Dev nD) : W4 m ρ c (Proc.devRef .tc main_arg4) = m ((c : Thread nD τ).loc main_arg4) :=
  (W4_keep m ρ c main_arg4 (by decide) (by decide) (by decide)).trans ((W1_of_ne m ρ c main_arg4 (by decide)).trans rfl)
theorem W4_main_arg5 (c : Dev nD) : W4 m ρ c (Proc.devRef .tc main_arg5) = m ((c : Thread nD τ).loc main_arg5) :=
  (W4_keep m ρ c main_arg5 (by decide) (by decide) (by decide)).trans ((W1_arr m ρ c 2).trans ((((dat0 (VE0 m ρ) c).arrAt_in 2 rfl _).trans (A_eq0 (VE0 m ρ) c 2)).trans rfl))
theorem W4_main_arg6 (c : Dev nD) : W4 m ρ c (Proc.devRef .tc main_arg6) = m ((c : Thread nD τ).loc main_arg6) :=
  (W4_keep m ρ c main_arg6 (by decide) (by decide) (by decide)).trans ((W1_of_ne m ρ c main_arg6 (by decide)).trans rfl)

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE1 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left with its arrays at
    what the write-backs leave and every other buffer as entered; the generator register into the region's invariant and out;
    nothing owed; no semaphore of the kernel's own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with its arrays at
    what the write-backs leave and every other buffer as entered; the generator register into the region's invariant and out;
    nothing owed; no semaphore of the kernel's own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VE1 m ρ) c
    unfold Pipeline.ΦA at h
    rw [show (pdats m ρ 1 c).Φ 0 = (dat1 (VE1 m ρ) c).Φ 0 from rfl]
    iintro ⟨Hp, -, Hr⟩
    iapply h
    isplitl [Hr]; · iexact Hr
    iexact Hp
  hout c := by
    rw [Pipeline.ownSems0_none]
    have h := hout1 (VE1 m ρ) c
    unfold Pipeline.ΦA at h
    rw [show (pdats m ρ 1 c).Φ (Fin.last _) = (dat1 (VE1 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdats m ρ) () defs₀ 𝒱H LH lvH) :=
  [ .region (reg0 m ρ),
    .host (hseg hostOps1 hostOps1_sub hostOps1_fresh (W1 m ρ)),
    .host (hseg hostOps1_1 hostOps1_1_sub hostOps1_1_fresh (W2 m ρ)),
    .region (reg1 m ρ) ]
theorem main_run (c : Dev nD) : main (F := F) c = Pipeline.Seg.run (segsH m ρ) := (main_chain c).trans (by chain_rfl)

set_option backward.isDefEq.respectTransparency.types false in
/-- From any memory with zero counters every weakly fair execution of the program terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim, at any float instance: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.Spec.lean ====
/-
  The one function both programs compute, as a function of the seven argument arrays over the extended reals, and the
  law that lets a contraction accumulated in four runs of 1024 be read as the whole contraction over 4096.

  A Bayesian linear layer: with softplus `sp`, weights `w[o,k] = wmu[o,k] + sp(wrho[o,k]) * ew[o,k]` and bias
  `b[o] = bmu[o] + sp(brho[o]) * eb[o]`, the output is `out[t,o] = (Σ_{k<4096} x[t,k] * w[o,k]) + b[o]`.
-/
import Idealize.ShloMosaic.PureOps.Ideal
import Idealize.ShloMosaic.Lib.ValueIdx
import proofs.«132240_j4930622456479_2_alg».proof.Proof.LibBlockedSum

noncomputable section

open scoped BigOperators

namespace Cert.Spec

open Idealize.ShloMosaic Idealize.ShloMosaic.ValueIdx

/-- The shape of the activations and of the output: 8192 rows of 4096. -/
abbrev SX : Shape := ⟨2, ![8192, 4096]⟩
/-- The shape of the three weight arrays: 4096 output features by 4096 input features. -/
abbrev SW : Shape := ⟨2, ![4096, 4096]⟩
/-- The shape of the three bias arrays. -/
abbrev SB : Shape := ⟨1, ![4096]⟩

/-- The f32 word `0x00000000` read as an extended real (it is `0`: `z_eq`). -/
abbrev z : Ideal .f32 := FloatOps.ofBits (F := Ideal) .f32 0x00000000#32

theorem z_eq : z = 0 := by
  show Ideal.ofBits .f32 0x00000000#32 = 0
  simp [Ideal.ofBits, Ideal.ieee]

/-- Softplus of one extended real, as the host program spells it:
    `select (x - 0 ≠ x - 0) (x + 0) (max x 0 + log1p (exp (-|x - 0|)))`. The test is never true over the extended reals,
    so this is `max x 0 + log1p (exp (-|x|))`; nothing here needs that. -/
def sp (x : EReal) : EReal :=
  Scalar.select
    (FloatOps.cmpf (F := Ideal) (φ := .f32) .une (FloatOps.subf (F := Ideal) (φ := .f32) x z)
      (FloatOps.subf (F := Ideal) (φ := .f32) x z))
    (FloatOps.addf (F := Ideal) (φ := .f32) x z)
    (FloatOps.addf (F := Ideal) (φ := .f32) (FloatOps.maximumf (F := Ideal) (φ := .f32) x z)
      (FloatOps.hostUnary (F := Ideal) (φ := .f32) .log1p
        (FloatOps.hostUnary (F := Ideal) (φ := .f32) .exp
          (FloatOps.hostNegf (F := Ideal) (φ := .f32)
            (FloatOps.hostAbsf (F := Ideal) (φ := .f32) (FloatOps.subf (F := Ideal) (φ := .f32) x z))))))

/-- The same value in the kernel body's spelling: the negation written `0 - |x - 0|`, the never-true test as the ordered
    "not equal", and the vector unit's `exp`, `log1p`, `|·|`. -/
theorem sp_kernel (x : EReal) :
    Scalar.select
      (FloatOps.cmpf (F := Ideal) (φ := .f32) .one (FloatOps.subf (F := Ideal) (φ := .f32) x z)
        (FloatOps.subf (F := Ideal) (φ := .f32) x z))
      (FloatOps.addf (F := Ideal) (φ := .f32) x z)
      (FloatOps.addf (F := Ideal) (φ := .f32) (FloatOps.maximumf (F := Ideal) (φ := .f32) x z)
        (FloatOps.log1p (F := Ideal) (φ := .f32)
          (FloatOps.exp (F := Ideal) (φ := .f32)
            (FloatOps.subf (F := Ideal) (φ := .f32) z
              (FloatOps.absf (F := Ideal) (φ := .f32) (FloatOps.subf (F := Ideal) (φ := .f32) x z))))))
      = sp x := by
  have h : ∀ a : EReal, FloatOps.subf (F := Ideal) (φ := .f32) z a = FloatOps.hostNegf (F := Ideal) (φ := .f32) a := by
    intro a
    show z - a = -a
    rw [z_eq, zero_sub]
  rw [h]
  rfl

/-- THE FUNCTION: `G x wmu wrho ew bmu brho eb (t, o) = (Σ_k x (t, k) * (wmu (o, k) + sp (wrho (o, k)) * ew (o, k))) + (bmu o + sp (brho o) * eb o)`. -/
def G (x : SX.Idx → EReal) (wmu wrho ew : SW.Idx → EReal) (bmu brho eb : SB.Idx → EReal) : SX.Idx → EReal :=
  fun i =>
    (∑ k : Fin 4096, x (ix2 (⟨(i 0).val, idx2_lt0 i⟩ : Fin 8192) k)
        * (wmu (ix2 (⟨(i 1).val, idx2_lt1 i⟩ : Fin 4096) k)
            + sp (wrho (ix2 (⟨(i 1).val, idx2_lt1 i⟩ : Fin 4096) k)) * ew (ix2 (⟨(i 1).val, idx2_lt1 i⟩ : Fin 4096) k)))
      + (bmu (ix1 (⟨(i 1).val, idx2_lt1 i⟩ : Fin 4096))
          + sp (brho (ix1 (⟨(i 1).val, idx2_lt1 i⟩ : Fin 4096))) * eb (ix1 (⟨(i 1).val, idx2_lt1 i⟩ : Fin 4096)))

/-- `G` at an index given by its two coordinates. -/
theorem G_apply (x : SX.Idx → EReal) (wmu wrho ew : SW.Idx → EReal) (bmu brho eb : SB.Idx → EReal)
    (t : Fin 8192) (o : Fin 4096) :
    G x wmu wrho ew bmu brho eb (ix2 t o)
      = (∑ k : Fin 4096, x (ix2 t k) * (wmu (ix2 o k) + sp (wrho (ix2 o k)) * ew (ix2 o k)))
          + (bmu (ix1 o) + sp (brho (ix1 o)) * eb (ix1 o)) := rfl

/-! ## Four runs of 1024 are the whole contraction over 4096 -/

section Blocked
variable {M : Type*} [AddCommMonoid M]

/-- Over positions as natural numbers: starting from `0` and adding the four runs in order gives the whole sum. -/
theorem sum4_nat (g : ℕ → M) :
    (((0 + ∑ j : Fin 1024, g (1024 * 0 + j.val)) + ∑ j : Fin 1024, g (1024 * 1 + j.val))
        + ∑ j : Fin 1024, g (1024 * 2 + j.val)) + ∑ j : Fin 1024, g (1024 * 3 + j.val)
      = ∑ k : Fin 4096, g k.val := by
  have h := BlockedSum.sum_fin_blocks 4 1024 g
  rw [show (4 * 1024 : ℕ) = 4096 from rfl] at h
  rw [h, Finset.sum_range_succ, Finset.sum_range_succ, Finset.sum_range_succ, Finset.sum_range_one, zero_add]

/-- The same for a function of the contracted coordinate `k : Fin 4096`, the runs read at `⟨1024 * s + j, _⟩`. -/
theorem sum4_fin (g : Fin 4096 → M) :
    (((0 + ∑ j : Fin 1024, g ⟨1024 * 0 + j.val, by omega⟩) + ∑ j : Fin 1024, g ⟨1024 * 1 + j.val, by omega⟩)
        + ∑ j : Fin 1024, g ⟨1024 * 2 + j.val, by omega⟩) + ∑ j : Fin 1024, g ⟨1024 * 3 + j.val, by omega⟩
      = ∑ k : Fin 4096, g k := by
  have h := sum4_nat (fun n => if hn : n < 4096 then g ⟨n, hn⟩ else 0)
  simp only [Fin.is_lt, dite_true] at h
  have e : ∀ (s : ℕ) (hs : s < 4) (j : Fin 1024),
      (if hn : 1024 * s + j.val < 4096 then g ⟨1024 * s + j.val, hn⟩ else 0) = g ⟨1024 * s + j.val, by omega⟩ :=
    fun s hs j => dif_pos (by omega)
  rw [← h]
  simp only [e 0 (by omega), e 1 (by omega), e 2 (by omega), e 3 (by omega)]

end Blocked

end Cert.Spec

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.PayIdeal.lean ====
/-
  The four values the two kernel bodies store, read at an index over the extended reals.

  * the reparameterisation body stores `wmu + sp(wrho) * ew` (its rounding to the narrow format is the identity here);
  * the product body first stores `0` into its accumulator, then at every step along the contracted axis stores the
    accumulator plus `Σ_k a(r,k) * w(q,k)` (the product `a · wᵀ` of the two loaded blocks, into a zero accumulator),
    and last stores the accumulator plus the bias row broadcast over the rows.

  Also the host program's softplus of a rank-1 array, read at an index: it is `sp` of the element.
-/
import proofs.«132240_j4930622456479_2_alg».proof.Proof.Spec
import proofs.«132240_j4930622456479_2_alg».proof.Proof.LibDotTransposedRhs
import proofs.«132240_j4930622456479_2_alg».proof.Proof.Gen.KernelIdeal.Skeleton
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The reparameterisation body's stored value at an index: `wmu + sp(wrho) * ew`. -/
theorem k0_pay1_apply (v0 v1 v16 : Vec Ideal S512x1024 .f32) (y : S512x1024.Idx) :
    Gen.k0_pay1 (F := Ideal) v0 v1 v16 y = v0 y + Cert.Spec.sp (v1 y) * v16 y :=
  congrArg (fun s => v0 y + s * v16 y) (Cert.Spec.sp_kernel (v1 y))

/-- The product body's first store clears the accumulator. -/
theorem k1_pay1_apply (y : S1024x1024.Idx) : Gen.k1_pay1 (F := Ideal) y = 0 := by
  show shapeCast S1024x1024 (broadcast S1024x1024 (Cert.Spec.z)) shapeCasts_S1024x1024_S1024x1024 y = 0
  rw [shapeCast_self]
  exact Cert.Spec.z_eq

/-- The printed dimension numbers are those of `A · Bᵀ` on 1024 × 1024 blocks. -/
theorem dot_eq : dot_S1024x1024_S1024x1024_S1024x1024_1_1_0_0_n_n = DotDims.transposedRhs 1024 1024 1024 := rfl

/-- The product body's step: the accumulator plus the product of the two blocks, the right one contracted on its last
    axis. -/
theorem k1_pay2_apply (v3 : Vec Ideal S1024x1024 .f32) (v4 v6 : Vec Ideal S1024x1024 .bf16) (r q : Fin 1024) :
    Gen.k1_pay2 (F := Ideal) v3 v4 v6 (ix2 r q) = v3 (ix2 r q) + ∑ k : Fin 1024, v4 (ix2 r k) * v6 (ix2 q k) := by
  show shapeCast S1024x1024 (addf (F := Ideal) (φ := .f32) v3
      (matmul dot_S1024x1024_S1024x1024_S1024x1024_1_1_0_0_n_n none
        (shapeCast S1024x1024 (v4 : FVec Ideal S1024x1024 .bf16) shapeCasts_S1024x1024_S1024x1024)
        (shapeCast S1024x1024 (v6 : FVec Ideal S1024x1024 .bf16) shapeCasts_S1024x1024_S1024x1024)
        (constant S1024x1024 .f32 0x00000000#32))) shapeCasts_S1024x1024_S1024x1024 (ix2 r q) = _
  rw [shapeCast_self, shapeCast_self, shapeCast_self, dot_eq]
  exact congrArg (v3 (ix2 r q) + ·)
    (DotTransposedRhs.matmul_apply_ix2 (φ₁ := .bf16) (φ₂ := .bf16) none v4 v6 r q)

/-- The product body's last store: the accumulator plus the bias row, the same for every row. -/
theorem k1_pay3_apply (v16 : Vec Ideal S1024x1024 .f32) (v17 : Vec Ideal S1x1024 .f32) (r q : Fin 1024) :
    Gen.k1_pay3 (F := Ideal) v16 v17 (ix2 r q) = v16 (ix2 r q) + v17 (ix2 (0 : Fin 1) q) := by
  show v16 (ix2 r q) + broadcastTo S1024x1024 (shapeCast S1x1024 (v17 : FVec Ideal S1x1024 .f32) shapeCasts_S1x1024_S1x1024)
      broadcasts_S1x1024_S1024x1024 (ix2 r q) = _
  rw [shapeCast_self, broadcastTo_1b_ab_apply]

/-- The host program's softplus of a rank-1 array, at an index, is `sp` of the element. -/
theorem host_softplus_apply (a : FVec Ideal S4096 .f32) (j : S4096.Idx) :
    select
      (cmpf (F := Ideal) .une (subf a (broadcastInDim S4096 ![] bcast_S_S4096 (constant S_ .f32 0x00000000#32)))
        (subf a (broadcastInDim S4096 ![] bcast_S_S4096 (constant S_ .f32 0x00000000#32))))
      (addf a (broadcastInDim S4096 ![] bcast_S_S4096 (constant S_ .f32 0x00000000#32)))
      (addf (maximumf a (broadcastInDim S4096 ![] bcast_S_S4096 (constant S_ .f32 0x00000000#32)))
        (Host.log1p (Host.exp (Host.negf (Host.absf
          (subf a (broadcastInDim S4096 ![] bcast_S_S4096 (constant S_ .f32 0x00000000#32))))))))
      j
      = Cert.Spec.sp (a j) := rfl

end Cert.KernelIdeal.Pay

end
-- ==== Proof.KIValue0.lean ====
import proofs.«132240_j4930622456479_2_alg».proof.Proof.KIRegion0
import Idealize.ShloMosaic.Lib.Pipeline.Value
import Idealize.ShloMosaic.Lib.ValueIdx
import proofs.«132240_j4930622456479_2_alg».proof.Proof.PayIdeal

/-! # The array the first pallas_call leaves, as one function (at the extended reals)

The pointwise region writes, at every grid point, the block of ONE whole-array function of the three input arrays
(the payload read index by index; the four windows move together over the 8 x 4 grid, and a block's element sits
at block index x block size + its own coordinate). The 32 blocks of 512 x 1024 tile the 4096 x 4096 array, so after
the region the output array IS that function of the region-entry contents. -/

noncomputable section

namespace Cert.KernelIdeal.Val

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The printed index maps, decided over the grid: the three input windows move with the output window, whose block
    indices stay in their ranges. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the array is SOME point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- A pointwise function of three arrays, index by index. -/
abbrev G3 (g : EReal → EReal → EReal → EReal) (a1 a2 a5 : S4096x4096.Idx → Elt Ideal .f32) : S4096x4096.Idx → Elt Ideal .bf16 :=
  fun i => g (a1 i) (a2 i) (a5 i)

/-- WHAT POINT `t` WRITES BACK is block `t` of `G3 g` of the three input arrays as the region finds them, whenever the
    payload reads, index by index, as `g` of its three loads. -/
theorem flushed3_eq (g : EReal → EReal → EReal → EReal)
    (hpay : ∀ (v0 v1 v16 : Vec Ideal S512x1024 .f32) (y : S512x1024.Idx), k0_pay1 (F := Ideal) v0 v1 v16 y = g (v0 y) (v1 y) (v16 y))
    (c : Dev nD) (t : Fin cfg0.N) :
    (dat0 V c).flushed 3 t = ((cfg0.win 3).blk t).view.read (Elt Ideal) (G3 g (V c main_arg1) (V c main_arg2) (V c main_arg5)) := by
  show (cfg0.win 3).cut (grid0.coords t) ((dat0 V c).after 3 t) = _
  rw [after0_3]
  unfold out0_3
  rw [View.canon_unit_zero hz]
  simp only [View.ld_unit_zero (S := S512x1024) hz]
  obtain ⟨e0, e1, e2, e3, e4, e5, e6, e7⟩ := idx_facts t
  funext j
  show k0_pay1 (F := Ideal) (iblk0 V c 0 t) (iblk0 V c 1 t) (iblk0 V c 2 t) j
      = g (V c main_arg1 (((cfg0.win 3).blk t).view.emb j)) (V c main_arg2 (((cfg0.win 3).blk t).view.emb j)) (V c main_arg5 (((cfg0.win 3).blk t).view.emb j))
  rw [hpay]
  show g (V c main_arg1 (((cfg0.win 0).blk t).view.emb j)) (V c main_arg2 (((cfg0.win 1).blk t).view.emb j)) (V c main_arg5 (((cfg0.win 2).blk t).view.emb j)) = _
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 1024 + 1 * (j 1).val = win0_3.index t (1 : Fin 2) * 1024 + 1 * (j 1).val; rw [e1]
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; rw [e2]
    | ⟨1, _⟩ => show win0_1.index t (1 : Fin 2) * 1024 + 1 * (j 1).val = win0_3.index t (1 : Fin 2) * 1024 + 1 * (j 1).val; rw [e3]
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; rw [e4]
    | ⟨1, _⟩ => show win0_2.index t (1 : Fin 2) * 1024 + 1 * (j 1).val = win0_3.index t (1 : Fin 2) * 1024 + 1 * (j 1).val; rw [e5]
  rw [h0, h1, h2]

/-- An index of the array is in point `t`'s block iff each coordinate is in the block's range on its axis. -/
theorem mem_blk3 (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Every index of the array is in some point's block: the 8 x 4 blocks of 512 x 1024 tile the 4096 x 4096 array. -/
theorem cover3 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY region 0 leaves in window 3, as one function of the region-entry contents, for any pointwise reading `g` of the payload. -/
theorem final0_of (g : EReal → EReal → EReal → EReal)
    (hpay : ∀ (v0 v1 v16 : Vec Ideal S512x1024 .f32) (y : S512x1024.Idx), k0_pay1 (F := Ideal) v0 v1 v16 y = g (v0 y) (v1 y) (v16 y))
    (c : Dev nD) :
    (dat0 V c).arrAt 3 cfg0.N = fun j => g (V c main_arg1 j) (V c main_arg2 j) (V c main_arg5 j) :=
  (dat0 V c).arrAt_eq_of_cover 3 (G3 g (V c main_arg1) (V c main_arg2) (V c main_arg5)) (fun t _ => flushed3_eq V g hpay c t) cover3

/-- `wmu + softplus(wrho) * ew`, index by index, as a function of three arrays of extended reals. -/
abbrev W0 (wmu wrho ew : S4096x4096.Idx → EReal) : S4096x4096.Idx → EReal :=
  fun j => wmu j + Cert.Spec.sp (wrho j) * ew j

/-- THE ARRAY the first pallas_call leaves: `wmu + softplus(wrho) * ew`, index by index, of the region-entry contents. -/
theorem final0 (c : Dev nD) :
    (dat0 V c).arrAt 3 cfg0.N = W0 (V c main_arg1) (V c main_arg2) (V c main_arg5) :=
  final0_of V (fun a b d => a + Cert.Spec.sp b * d) Cert.KernelIdeal.Pay.k0_pay1_apply c

/-- The same, over three arrays named by equations (so that a use never unfolds the region-entry contents). -/
theorem final0_eq (c : Dev nD) (wmu wrho ew : S4096x4096.Idx → EReal)
    (h1 : V c main_arg1 = wmu) (h2 : V c main_arg2 = wrho) (h5 : V c main_arg5 = ew) :
    (dat0 V c).arrAt 3 cfg0.N = fun j => wmu j + Cert.Spec.sp (wrho j) * ew j := by
  subst h1 h2 h5
  exact final0 V c

end Cert.KernelIdeal.Val

end
-- ==== Proof.KIValue1.lean ====
import proofs.«132240_j4930622456479_2_alg».proof.Proof.KIRegion1
import Idealize.ShloMosaic.Lib.Pipeline.Value
import Idealize.ShloMosaic.Lib.ValueIdx

/-! # The array the second pallas_call leaves, from its blocks (at the extended reals)

The matrix-product region walks a grid of 8 x 4 x 4 positions (i, j, k); position `t` is the point
(t / 16, t / 4 % 4, t % 4). Its output window (blocks of 1024 x 1024, block index (i, j)) is written back only at
the last step k = 3 of each contraction. If the block written back there is that position's block of ONE whole-array
function `Y c` (a block's element sits at block index x block size + its own coordinate), then, the 32 blocks
tiling the 8192 x 4096 array, the array after the region IS `Y c`. -/

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A position of the second grid is below 128. -/
theorem olt128 (t : Fin cfg1.N) : t.val < 128 := by
  exact Nat.lt_of_lt_of_eq t.isLt (N_1 : cfg1.N = 128)

/-- The row of the array under row `r` of the block at position `t`. -/
theorem orow_lt (t : Fin cfg1.N) (r : Fin 1024) : 1024 * (t.val / 16) + r.val < 8192 := by
  have := olt128 t; have := r.isLt; omega

/-- The column of the array under column `q` of the block at position `t`. -/
theorem ocol_lt (t : Fin cfg1.N) (q : Fin 1024) : 1024 * (t.val / 4 % 4) + q.val < 4096 := by
  have := q.isLt; omega

/-- The output window's printed index map, decided over the grid: position `t` is the point (t / 16, t / 4 % 4, t % 4) and the
    output's block index is its first two coordinates. -/
theorem idx_facts1 : ∀ t : Fin cfg1.N,
    win1_3.index t (0 : Fin 2) = t.val / 16 ∧ win1_3.index t (1 : Fin 2) = t.val / 4 % 4 :=
  (by decide +kernel : ∀ t : Fin grid1.N, _)

/-- WHAT POSITION `t` WRITES BACK, when it is a last step (`t % 4 = 3`), is block `t` of `Y c`: the hypothesis `hout` read
    through the block's embedding. -/
theorem flushed1_3_eq (Y : Dev nD → S8192x4096.Idx → EReal)
    (hout : ∀ (c : Dev nD) (t : Fin cfg1.N), t.val % 4 = 3 → ∀ (r q : Fin 1024),
      (outsAt1 (F := Ideal) V c t.val t.isLt).1 (ix2 r q)
        = Y c (ix2 (⟨1024 * (t.val / 16) + r.val, orow_lt t r⟩ : Fin 8192) (⟨1024 * (t.val / 4 % 4) + q.val, ocol_lt t q⟩ : Fin 4096)))
    (c : Dev nD) (t : Fin cfg1.N) (ht : t.val % 4 = 3) :
    (dat1 V c).flushed 3 t = ((cfg1.win 3).blk t).view.read (Elt Ideal) (Y c) := by
  show (cfg1.win 3).cut (grid1.coords t) ((dat1 V c).after 3 t) = _
  rw [after1_3]
  obtain ⟨e0, e1⟩ := idx_facts1 t
  funext j
  obtain ⟨r, q, rfl⟩ : ∃ (r q : Fin 1024), j = ix2 r q := ⟨j 0, j 1, eq_ix2 j⟩
  show (outsAt1 (F := Ideal) V c t.val t.isLt).1 (ix2 r q) = Y c (((cfg1.win 3).blk t).view.emb (ix2 r q))
  rw [hout c t ht r q]
  congr 1
  funext a; apply Fin.ext
  match a with
  | ⟨0, _⟩ => show 1024 * (t.val / 16) + r.val = win1_3.index t (0 : Fin 2) * 1024 + 1 * r.val; rw [e0]; omega
  | ⟨1, _⟩ => show 1024 * (t.val / 4 % 4) + q.val = win1_3.index t (1 : Fin 2) * 1024 + 1 * q.val; rw [e1]; omega

/-- An index of the array is in position `t`'s block iff each coordinate is in the block's range on its axis. -/
theorem mem_blk1_3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v6).slice (win1_3.rect t)).set ↔ _
  rw [View.set_slice_whole, Rect.mem_set_unit]
  exact Iff.rfl

/-- Every index (T, O) of the array is in the block of a position that writes back: the last step of the contraction
    at the point (T / 1024, O / 1024). -/
theorem cover1_3 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hlt : (((i 0).val / 1024) * 4 + (i 1).val / 1024) * 4 + 3 < cfg1.N := by
    rw [show cfg1.N = 128 from N_1]; omega
  obtain ⟨e0, e1⟩ := idx_facts1 ⟨(((i 0).val / 1024) * 4 + (i 1).val / 1024) * 4 + 3, hlt⟩
  refine ⟨⟨(((i 0).val / 1024) * 4 + (i 1).val / 1024) * 4 + 3, hlt⟩, (flush1_3 _).2 (by show ((((i 0).val / 1024) * 4 + (i 1).val / 1024) * 4 + 3) % 4 = 3; omega), ?_⟩
  rw [mem_blk1_3]
  intro a
  match a with
  | ⟨0, _⟩ =>
    show win1_3.index _ (0 : Fin 2) * 1024 ≤ (i 0).val ∧ (i 0).val < win1_3.index _ (0 : Fin 2) * 1024 + 1024
    rw [e0]
    show ((((i 0).val / 1024) * 4 + (i 1).val / 1024) * 4 + 3) / 16 * 1024 ≤ (i 0).val ∧ (i 0).val < ((((i 0).val / 1024) * 4 + (i 1).val / 1024) * 4 + 3) / 16 * 1024 + 1024
    omega
  | ⟨1, _⟩ =>
    show win1_3.index _ (1 : Fin 2) * 1024 ≤ (i 1).val ∧ (i 1).val < win1_3.index _ (1 : Fin 2) * 1024 + 1024
    rw [e1]
    show ((((i 0).val / 1024) * 4 + (i 1).val / 1024) * 4 + 3) / 4 % 4 * 1024 ≤ (i 1).val ∧ (i 1).val < ((((i 0).val / 1024) * 4 + (i 1).val / 1024) * 4 + 3) / 4 % 4 * 1024 + 1024
    omega

/-- THE ARRAY the second pallas_call leaves in its output window: `Y c`, whenever the block written back at each position
    that writes back (the last step of a contraction) is that position's block of `Y c`. -/
theorem final1_of (Y : Dev nD → S8192x4096.Idx → EReal)
    (hout : ∀ (c : Dev nD) (t : Fin cfg1.N), t.val % 4 = 3 → ∀ (r q : Fin 1024),
      (outsAt1 (F := Ideal) V c t.val t.isLt).1 (ix2 r q)
        = Y c (ix2 (⟨1024 * (t.val / 16) + r.val, orow_lt t r⟩ : Fin 8192) (⟨1024 * (t.val / 4 % 4) + q.val, ocol_lt t q⟩ : Fin 4096)))
    (c : Dev nD) :
    (dat1 (F := Ideal) V c).arrAt 3 cfg1.N = Y c :=
  (dat1 V c).arrAt_eq_of_cover 3 (Y c) (fun t hf => flushed1_3_eq V Y hout c t ((flush1_3 t).1 hf)) cover1_3

end Cert.KernelIdeal.Val

end
-- ==== Proof.KIPieces1.lean ====
/-
  What each control case of the matrix-product body leaves, as the body's own arithmetic: the pieces found by running
  the body are whole-block stores, so reading them back gives the stored payload.

  At k = 0 the accumulator ends at one accumulation over the zero block; at k > 0 at one accumulation over what it
  held on entry; at k = 3 the output block ends at accumulator + bias row, the accumulator being the one just stored.
-/
import proofs.«132240_j4930622456479_2_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles start at the origin. -/
theorem hz2 : (![0, 0] : Fin 2 → Nat) = fun _ => 0 := by funext a; fin_cases a <;> rfl

theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero hz2]
  simp only [View.readAt_eq_ld, harg3.read_unread, harg4.read_unread, View.ld_unit_zero (S := S1024x1024) hz2]
  rw [View.readCov_unit_zero (S := S1024x1024) arg7.view hz2]

theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg7.read_unread, View.ld_unit_zero (S := S1024x1024) hz2]

theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg7.read_unread, View.ld_unit_zero (S := S1024x1024) hz2]

theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S1024x1024) hz2, View.ld_unit_zero (S := S1x1024) hz2]
  rw [View.readCov_unit_zero (S := S1024x1024) arg7.view hz2]

end Cert.KernelIdeal.Hand

end
-- ==== Proof.KIStep1.lean ====
/-
  The accumulator from one position to the next, for any float instance: at k = 0 it is one accumulation of the
  position's block product over the zero block; at k > 0 one accumulation over what the position before left; and at
  k = 3 the output block is that accumulator plus the bias row.
-/
import proofs.«132240_j4930622456479_2_alg».proof.Proof.KIPieces1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem fst_pair {α β : Type} (a : α) (b : β) : (a, b).1 = a := rfl
theorem snd_pair {α β : Type} (a : α) (b : β) : (a, b).2 = b := rfl

/-- The accumulator after position `n`. -/
abbrev accAt (c : Dev nD) (n : ℕ) (hn : n < cfg1.N) : Vec F S1024x1024 .f32 := (outsAt1 V c n hn).2

theorem accAt_first (c : Dev nD) (t : Fin cfg1.N) (h0 : t.val % 4 = 0) :
    accAt V c t.val t.isLt = k1_pay2 (k1_pay1 (F := F)) (iblk1 V c 0 t) (iblk1 V c 1 t) := by
  have h1 : ¬t.val % 4 = 3 := by omega
  have e := sout1_A_0_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)
  exact (congrArg Prod.snd (outsAt1_A V c t h0 h1)).trans ((snd_pair _ _).trans e)

theorem accAt_next (c : Dev nD) (t : Fin cfg1.N) (h0 : ¬t.val % 4 = 0) :
    accAt V c t.val t.isLt
      = k1_pay2 (accAt V c (t.val - 1) (Nat.lt_of_le_of_lt (Nat.sub_le _ _) t.isLt)) (iblk1 V c 0 t) (iblk1 V c 1 t) := by
  by_cases h1 : t.val % 4 = 3
  · have e := sout1_C_0_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
    exact (congrArg Prod.snd (outsAt1_C V c t h0 h1)).trans ((snd_pair _ _).trans e)
  · have e := sout1_B_0_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2
    exact (congrArg Prod.snd (outsAt1_B V c t h0 h1)).trans ((snd_pair _ _).trans e)

theorem out_last (c : Dev nD) (t : Fin cfg1.N) (h3 : t.val % 4 = 3) :
    (outsAt1 V c t.val t.isLt).1 = k1_pay3 (accAt V c t.val t.isLt) (iblk1 V c 2 t) := by
  have h0 : ¬t.val % 4 = 0 := by omega
  have e := out1_C_3_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h3) (iblk1 V c 0 t) (iblk1 V c 1 t) (iblk1 V c 2 t) (outsAt1 V c (t.val - 1) (Nat.lt_of_le_of_lt (Nat.sub_le _ _) t.isLt)).2
  have e' := (congrArg Prod.fst (outsAt1_C V c t h0 h3)).trans ((fst_pair _ _).trans e)
  rw [accAt_next V c t h0]
  exact e'

end Cert.KernelIdeal.Hand

end
-- ==== Proof.KIBlocks1.lean ====
/-
  The matrix-product region's three input blocks, read at explicit coordinates.

  The grid is 8 x 4 x 4 over (i, j, k); position t has i = t / 16, j = t / 4 mod 4, k = t mod 4. The left operand's
  window walks the blocks (i, k) of the 8192 x 4096 activations, the right operand's the blocks (j, k) of the 4096 x 4096
  weights, the bias row's the blocks (0, j) of the 1 x 4096 bias; a block's element sits at block index x block size + its
  own coordinate. So element (r, kk) of the left block at t is the activations' element (1024 i + r, 1024 k + kk), and so
  on: each block read is the array, as the region finds it, at that index.
-/
import proofs.«132240_j4930622456479_2_alg».proof.Proof.KIRuns1
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The three input windows' printed index maps, decided over the grid: (i, k), (j, k) and (0, j) of the position. -/
theorem idx1_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4 :=
  (by decide +kernel : ∀ t : Fin grid1.N, _)

/-- A position is below 128. -/
theorem pos_lt (t : Fin cfg1.N) : t.val < 128 := by
  have h := t.isLt
  have hN : cfg1.N = 128 := Gen.N_1
  omega

/-- Row `1024 i + r` of the activations is below 8192. -/
theorem row_lt (t : Fin cfg1.N) (r : Fin 1024) : 1024 * (t.val / 16) + r.val < 8192 := by
  have := pos_lt t; have := r.isLt; omega
/-- Column `1024 k + kk` of the contracted axis is below 4096. -/
theorem con_lt (t : Fin cfg1.N) (kk : Fin 1024) : 1024 * (t.val % 4) + kk.val < 4096 := by
  have := kk.isLt; omega
/-- Output feature `1024 j + q` is below 4096. -/
theorem feat_lt (t : Fin cfg1.N) (q : Fin 1024) : 1024 * (t.val / 4 % 4) + q.val < 4096 := by
  have := q.isLt; omega

/-- The left operand's block at position t, at (r, kk): the activations (as the region finds them) at
    (1024 i + r, 1024 k + kk). -/
theorem iblk1_0_apply (c : Dev nD) (t : Fin cfg1.N) (r kk : Fin 1024) :
    iblk1 V c 0 t (ix2 r kk)
      = V c main_v5 (ix2 (⟨1024 * (t.val / 16) + r.val, row_lt t r⟩ : Fin 8192) (⟨1024 * (t.val % 4) + kk.val, con_lt t kk⟩ : Fin 4096)) := by
  obtain ⟨e0, e1, -, -, -, -⟩ := idx1_facts t
  show V c main_v5 (((cfg1.win 0).blk t).view.emb (ix2 r kk)) = V c main_v5 _
  refine congrArg (V c main_v5) ?_
  funext a; apply Fin.ext
  match a with
  | ⟨0, _⟩ => show win1_0.index t (0 : Fin 2) * 1024 + 1 * r.val = 1024 * (t.val / 16) + r.val; rw [e0]; omega
  | ⟨1, _⟩ => show win1_0.index t (1 : Fin 2) * 1024 + 1 * kk.val = 1024 * (t.val % 4) + kk.val; rw [e1]; omega

/-- The right operand's block at position t, at (q, kk): the weights (as the region finds them) at
    (1024 j + q, 1024 k + kk). -/
theorem iblk1_1_apply (c : Dev nD) (t : Fin cfg1.N) (q kk : Fin 1024) :
    iblk1 V c 1 t (ix2 q kk)
      = V c main_v0 (ix2 (⟨1024 * (t.val / 4 % 4) + q.val, feat_lt t q⟩ : Fin 4096) (⟨1024 * (t.val % 4) + kk.val, con_lt t kk⟩ : Fin 4096)) := by
  obtain ⟨-, -, e2, e3, -, -⟩ := idx1_facts t
  show V c main_v0 (((cfg1.win 1).blk t).view.emb (ix2 q kk)) = V c main_v0 _
  refine congrArg (V c main_v0) ?_
  funext a; apply Fin.ext
  match a with
  | ⟨0, _⟩ => show win1_1.index t (0 : Fin 2) * 1024 + 1 * q.val = 1024 * (t.val / 4 % 4) + q.val; rw [e2]; omega
  | ⟨1, _⟩ => show win1_1.index t (1 : Fin 2) * 1024 + 1 * kk.val = 1024 * (t.val % 4) + kk.val; rw [e3]; omega

/-- The bias row's block at position t, at (0, q): the bias row (as the region finds it) at (0, 1024 j + q). -/
theorem iblk1_2_apply (c : Dev nD) (t : Fin cfg1.N) (q : Fin 1024) :
    iblk1 V c 2 t (ix2 (0 : Fin 1) q)
      = V c main_v4 (ix2 (0 : Fin 1) (⟨1024 * (t.val / 4 % 4) + q.val, feat_lt t q⟩ : Fin 4096)) := by
  obtain ⟨-, -, -, -, e4, e5⟩ := idx1_facts t
  show V c main_v4 (((cfg1.win 2).blk t).view.emb (ix2 (0 : Fin 1) q)) = V c main_v4 _
  refine congrArg (V c main_v4) ?_
  funext a; apply Fin.ext
  match a with
  | ⟨0, _⟩ => show win1_2.index t (0 : Fin 2) * 1 + 1 * (0 : Fin 1).val = 0; rw [e4]; rfl
  | ⟨1, _⟩ => show win1_2.index t (1 : Fin 2) * 1024 + 1 * q.val = 1024 * (t.val / 4 % 4) + q.val; rw [e5]; omega

end Cert.KernelIdeal.Val

end
-- ==== Proof.KIAcc1.lean ====
/-
  The output block of the matrix-product region at a position with k = 3, entry by entry, over the extended reals.

  Positions t - 3, …, t share the output block (i, j) and have k = 0, 1, 2, 3. Unrolling the accumulator four times,
  entry (r, q) of the output block is  (((0 + D₀) + D₁) + D₂) + D₃ + bias(q),  where D_s is the product of row r of
  the left operand's block and row q of the right operand's block at k = s — a run of 1024 consecutive terms of the
  4096-term sum  Σ_k x(T, k) · w(O, k)  with T = 1024 i + r, O = 1024 j + q. Four runs make the whole sum.
-/
import proofs.«132240_j4930622456479_2_alg».proof.Proof.KIStep1
import proofs.«132240_j4930622456479_2_alg».proof.Proof.KIBlocks1
import proofs.«132240_j4930622456479_2_alg».proof.Proof.PayIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

end Cert.KernelIdeal.Hand

namespace Cert.KernelIdeal.Val

open Cert.KernelIdeal Cert.KernelIdeal.Gen Cert.KernelIdeal.Hand Cert.KernelIdeal.Pay
open Idealize.ShloMosaic Idealize.ShloMosaic.TcCoe Idealize.SL.Sem Idealize.ShloMosaic.ValueIdx

variable (V : (c : Dev nD) → (b : Ref sig .tc) → Buf (Elt Ideal) ((c : Thread nD τ).loc b))

/-- The left and right operands' blocks at a position, as functions to the extended reals. -/
abbrev xb (c : Dev nD) (t : Fin cfg1.N) : S1024x1024.Idx → EReal := iblk1 V c 0 t
abbrev wb (c : Dev nD) (t : Fin cfg1.N) : S1024x1024.Idx → EReal := iblk1 V c 1 t

theorem run_lt (s : ℕ) (hs : s < 4) (j : Fin 1024) : 1024 * s + j.val < 4096 := by
  have := j.isLt; omega

/-- Entry (r, q) of the accumulator after a position with k = 0: zero plus the block product. -/
theorem acc_first_apply (c : Dev nD) (n : ℕ) (hn : n < cfg1.N) (h0 : n % 4 = 0) (r q : Fin 1024) :
    accAt V c n hn (ix2 r q)
      = 0 + ∑ kk : Fin 1024, xb V c ⟨n, hn⟩ (ix2 r kk) * wb V c ⟨n, hn⟩ (ix2 q kk) := by
  rw [show accAt V c n hn = _ from accAt_first V c ⟨n, hn⟩ h0]
  refine (k1_pay2_apply _ _ _ r q).trans ?_
  rw [k1_pay1_apply]

/-- Entry (r, q) of the accumulator after a position with k > 0: what the position before left plus the block product. -/
theorem acc_next_apply (c : Dev nD) (n : ℕ) (hn : n < cfg1.N) (h0 : ¬n % 4 = 0) (r q : Fin 1024) :
    accAt V c n hn (ix2 r q)
      = accAt V c (n - 1) (Nat.lt_of_le_of_lt (Nat.sub_le _ _) hn) (ix2 r q)
        + ∑ kk : Fin 1024, xb V c ⟨n, hn⟩ (ix2 r kk) * wb V c ⟨n, hn⟩ (ix2 q kk) := by
  rw [show accAt V c n hn = _ from accAt_next V c ⟨n, hn⟩ h0]
  exact k1_pay2_apply _ _ _ r q

/-- The block product at a position sharing the output block of `t`, with k = s: the s-th run of 1024 terms of the
    whole contraction of row T of `x` with row O of `w`. -/
theorem blockdot_eq (c : Dev nD) (x : S8192x4096.Idx → EReal) (w : S4096x4096.Idx → EReal)
    (hx : V c main_v5 = x) (hw : V c main_v0 = w) (t t' : Fin cfg1.N) (r q : Fin 1024) (s : ℕ) (hs : s < 4)
    (hi : t'.val / 16 = t.val / 16) (hj : t'.val / 4 % 4 = t.val / 4 % 4) (hk : t'.val % 4 = s) :
    (∑ kk : Fin 1024, xb V c t' (ix2 r kk) * wb V c t' (ix2 q kk))
      = ∑ j : Fin 1024, x (ix2 (⟨1024 * (t.val / 16) + r.val, row_lt t r⟩ : Fin 8192) (⟨1024 * s + j.val, run_lt s hs j⟩ : Fin 4096))
          * w (ix2 (⟨1024 * (t.val / 4 % 4) + q.val, feat_lt t q⟩ : Fin 4096) (⟨1024 * s + j.val, run_lt s hs j⟩ : Fin 4096)) := by
  refine Finset.sum_congr rfl fun kk _ => ?_
  have e1 : (⟨1024 * (t'.val / 16) + r.val, row_lt t' r⟩ : Fin 8192) = ⟨1024 * (t.val / 16) + r.val, row_lt t r⟩ :=
    Fin.ext (by simp only [hi])
  have e2 : (⟨1024 * (t'.val % 4) + kk.val, con_lt t' kk⟩ : Fin 4096) = ⟨1024 * s + kk.val, run_lt s hs kk⟩ :=
    Fin.ext (by simp only [hk])
  have e3 : (⟨1024 * (t'.val / 4 % 4) + q.val, feat_lt t' q⟩ : Fin 4096) = ⟨1024 * (t.val / 4 % 4) + q.val, feat_lt t q⟩ :=
    Fin.ext (by simp only [hj])
  unfold xb wb
  rw [iblk1_0_apply V c t' r kk, iblk1_1_apply V c t' q kk, hx, hw, e1, e2, e3]

/-- At a position with k = 3 the output block holds, entry by entry, the whole contraction plus the bias. -/
theorem out1_apply (c : Dev nD) (x : S8192x4096.Idx → EReal) (w : S4096x4096.Idx → EReal) (b : S1x4096.Idx → EReal)
    (hx : V c main_v5 = x) (hw : V c main_v0 = w) (hb : V c main_v4 = b)
    (t : Fin cfg1.N) (h3 : t.val % 4 = 3) (r q : Fin 1024) :
    (outsAt1 V c t.val t.isLt).1 (ix2 r q)
      = (∑ k : Fin 4096, x (ix2 (⟨1024 * (t.val / 16) + r.val, row_lt t r⟩ : Fin 8192) k)
            * w (ix2 (⟨1024 * (t.val / 4 % 4) + q.val, feat_lt t q⟩ : Fin 4096) k))
        + b (ix2 (0 : Fin 1) (⟨1024 * (t.val / 4 % 4) + q.val, feat_lt t q⟩ : Fin 4096)) := by
  have hN : t.val < 128 := pos_lt t
  have hlt : ∀ d, t.val - d < cfg1.N := fun d => Nat.lt_of_le_of_lt (Nat.sub_le _ _) t.isLt
  rw [out_last V c t h3]
  refine (k1_pay3_apply _ _ r q).trans ?_
  rw [iblk1_2_apply V c t q, hb]
  refine congrArg (· + _) ?_
  rw [acc_next_apply V c t.val t.isLt (by omega) r q,
    acc_next_apply V c (t.val - 1) _ (by omega) r q,
    acc_next_apply V c (t.val - 1 - 1) _ (by omega) r q,
    acc_first_apply V c (t.val - 1 - 1 - 1) _ (by omega) r q]
  rw [blockdot_eq V c x w hx hw t ⟨t.val - 1 - 1 - 1, _⟩ r q 0 (by omega) (by simp only []; omega) (by simp only []; omega) (by simp only []; omega),
    blockdot_eq V c x w hx hw t ⟨t.val - 1 - 1, _⟩ r q 1 (by omega) (by simp only []; omega) (by simp only []; omega) (by simp only []; omega),
    blockdot_eq V c x w hx hw t ⟨t.val - 1, _⟩ r q 2 (by omega) (by simp only []; omega) (by simp only []; omega) (by simp only []; omega),
    blockdot_eq V c x w hx hw t ⟨t.val, t.isLt⟩ r q 3 (by omega) rfl rfl h3]
  exact Cert.Spec.sum4_fin (fun k : Fin 4096 => x (ix2 (⟨1024 * (t.val / 16) + r.val, row_lt t r⟩ : Fin 8192) k)
    * w (ix2 (⟨1024 * (t.val / 4 % 4) + q.val, feat_lt t q⟩ : Fin 4096) k))

end Cert.KernelIdeal.Val

end
-- ==== Proof.KIHostVals.lean ====
/-
  What the matrix-product region finds in its three input arrays, over the extended reals, in terms of the launch memory.

  Between the two regions the host program computes the bias `bmu + sp(brho) * eb` (fourteen operations spelling the
  softplus of `brho`, a product, a sum), views it as a 1 x 4096 row, and casts the activations to the narrow format (the
  identity on extended reals). None of this writes the weight array the first region left, nor any argument array. So, when
  the second region is entered: the weight operand is what the first region left; the activation operand is the launched
  activations; the bias row at (0, o) is `bmu o + sp (brho o) * eb o` of the launched arrays.
-/
import proofs.«132240_j4930622456479_2_alg».proof.Proof.KIRun
import proofs.«132240_j4930622456479_2_alg».proof.Proof.Spec
import proofs.«132240_j4930622456479_2_alg».proof.Proof.PayIdeal
import Idealize.ShloMosaic.Lib.StableHlo.Run
import Idealize.ShloMosaic.Lib.ValueLayout
import Idealize.ShloMosaic.Lib.Pipeline.Value

noncomputable section

namespace Cert.KernelIdeal.Val

open Cert.KernelIdeal Cert.KernelIdeal.Gen Cert.KernelIdeal.Hand Idealize.ShloMosaic Idealize.ShloMosaic.TcCoe Idealize.SL.Sem
open Idealize.ShloMosaic.StableHlo Idealize.ShloMosaic.ValueIdx

/-! ## The two host stretches over ANY contents, the operands named by equations -/

/-- The softplus stretch leaves, in its result buffer, `sp` of its operand, index by index. -/
theorem after1_v1_apply (V : Valuation τ sig (Elt Ideal)) (a4 : S4096.Idx → EReal)
    (h4 : V (Proc.devRef .tc main_arg4) = a4) (j : S4096.Idx) :
    (StableHlo.after hostOps1 V (Proc.devRef .tc main_v1) : S4096.Idx → EReal) j = Cert.Spec.sp (a4 j) := by
  subst h4
  after_results
  rfl

/-- The second stretch leaves the bias row: at (0, o), the bias mean plus the softplus stretch's result times the noise. -/
theorem after1_1_v4_apply (V : Valuation τ sig (Elt Ideal)) (a3 a1 a6 : S4096.Idx → EReal)
    (h3 : V (Proc.devRef .tc main_arg3) = a3) (h1 : V (Proc.devRef .tc main_v1) = a1) (h6 : V (Proc.devRef .tc main_arg6) = a6)
    (o : Fin 4096) :
    (StableHlo.after hostOps1_1 V (Proc.devRef .tc main_v4) : S1x4096.Idx → EReal) (ix2 (0 : Fin 1) o)
      = a3 (ix1 o) + a1 (ix1 o) * a6 (ix1 o) := by
  have e : (StableHlo.after hostOps1_1 V (Proc.devRef .tc main_v4) : S1x4096.Idx → EReal)
      = shapeCast (⟨2, ![1, 4096]⟩ : Shape) (addf (F := Ideal) (φ := .f32) a3 (mulf (F := Ideal) (φ := .f32) a1 a6))
          shapeCasts_S4096_S1x4096 := by
    subst h3 h1 h6
    after_results
    rfl
  rw [e, shapeCast_a_1a_apply]
  rfl

/-- The second stretch leaves the activations as they were, in the narrow format's buffer. -/
theorem after1_1_v5_apply (V : Valuation τ sig (Elt Ideal)) (a0 : S8192x4096.Idx → EReal)
    (h0 : V (Proc.devRef .tc main_arg0) = a0) (i : S8192x4096.Idx) :
    (StableHlo.after hostOps1_1 V (Proc.devRef .tc main_v5) : S8192x4096.Idx → EReal) i = a0 i := by
  subst h0
  after_results
  rfl

variable (m : (ℓ : Loc nD τ sig) → Buf (Elt Ideal) ℓ) (ρ : Dev nD → PrngReg)

/-! ## The launched argument arrays the second region's inputs depend on, as functions of an index -/

/-- The launched activations. -/
abbrev xL (c : Dev nD) : S8192x4096.Idx → EReal := m ((c : Thread nD τ).loc main_arg0)
/-- The launched bias mean. -/
abbrev bmuL (c : Dev nD) : S4096.Idx → EReal := m ((c : Thread nD τ).loc main_arg3)
/-- The launched bias rho. -/
abbrev brhoL (c : Dev nD) : S4096.Idx → EReal := m ((c : Thread nD τ).loc main_arg4)
/-- The launched bias noise. -/
abbrev ebL (c : Dev nD) : S4096.Idx → EReal := m ((c : Thread nD τ).loc main_arg6)

/-- A buffer that is no array of the first region holds after it what was launched. -/
theorem W1_arg0 (c : Dev nD) : W1 m ρ c (Proc.devRef .tc main_arg0) = xL m c :=
  (W1_of_ne m ρ c main_arg0 (by decide)).trans rfl
theorem W1_arg3 (c : Dev nD) : W1 m ρ c (Proc.devRef .tc main_arg3) = bmuL m c :=
  (W1_of_ne m ρ c main_arg3 (by decide)).trans rfl
theorem W1_arg4 (c : Dev nD) : W1 m ρ c (Proc.devRef .tc main_arg4) = brhoL m c :=
  (W1_of_ne m ρ c main_arg4 (by decide)).trans rfl
theorem W1_arg6 (c : Dev nD) : W1 m ρ c (Proc.devRef .tc main_arg6) = ebL m c :=
  (W1_of_ne m ρ c main_arg6 (by decide)).trans rfl

/-- The softplus stretch writes none of them. -/
theorem W2_arg0 (c : Dev nD) : W2 m ρ c (Proc.devRef .tc main_arg0) = xL m c :=
  (StableHlo.after_of_writes_sub hostOps1 _ hostOps1_writes (by decide)).trans (W1_arg0 m ρ c)
theorem W2_arg3 (c : Dev nD) : W2 m ρ c (Proc.devRef .tc main_arg3) = bmuL m c :=
  (StableHlo.after_of_writes_sub hostOps1 _ hostOps1_writes (by decide)).trans (W1_arg3 m ρ c)
theorem W2_arg6 (c : Dev nD) : W2 m ρ c (Proc.devRef .tc main_arg6) = ebL m c :=
  (StableHlo.after_of_writes_sub hostOps1 _ hostOps1_writes (by decide)).trans (W1_arg6 m ρ c)
/-- Its result buffer holds `sp` of the launched bias rho. -/
theorem W2_v1 (c : Dev nD) : W2 m ρ c (Proc.devRef .tc main_v1) = fun j => Cert.Spec.sp (brhoL m c j) :=
  funext fun j => after1_v1_apply (W1 m ρ c) (brhoL m c) (W1_arg4 m ρ c) j

/-! ## What the matrix-product region is entered with -/

/-- The weight operand is what the first region left in its output array: neither host stretch writes it. -/
theorem VE1_v0 (c : Dev nD) : VE1 m ρ c main_v0 = (dat0 (VE0 m ρ) c).arrAt 3 cfg0.N :=
  ((StableHlo.after_of_writes_sub hostOps1_1 _ hostOps1_1_writes (by decide)).trans
    (StableHlo.after_of_writes_sub hostOps1 _ hostOps1_writes (by decide))).trans (W1_arr m ρ c 3)

/-- The activation operand is the launched activations. -/
theorem VE1_v5_apply (c : Dev nD) (i : S8192x4096.Idx) :
    (VE1 m ρ c main_v5 : S8192x4096.Idx → EReal) i = xL m c i :=
  after1_1_v5_apply (W2 m ρ c) (xL m c) (W2_arg0 m ρ c) i

/-- The bias row at (0, o) is `bmu o + sp (brho o) * eb o` of the launched arrays. -/
theorem VE1_v4_apply (c : Dev nD) (o : Fin 4096) :
    (VE1 m ρ c main_v4 : S1x4096.Idx → EReal) (ix2 (0 : Fin 1) o)
      = bmuL m c (ix1 o) + Cert.Spec.sp (brhoL m c (ix1 o)) * ebL m c (ix1 o) :=
  after1_1_v4_apply (W2 m ρ c) (bmuL m c) (fun j => Cert.Spec.sp (brhoL m c j)) (ebL m c)
    (W2_arg3 m ρ c) (W2_v1 m ρ c) (W2_arg6 m ρ c) o

end Cert.KernelIdeal.Val

end
-- ==== Proof.KIBridge.lean ====
/-
  The kernel's result array is the specification: at the end of the run the output buffer holds, entry (T, O),
  Σ_k x(T,k) · (wmu(O,k) + sp(wrho(O,k)) · ew(O,k)) + (bmu(O) + sp(brho(O)) · eb(O))  of the launched arrays.

  The matrix-product region leaves, at (T, O), the contraction of row T of its left operand with row O of its right
  operand plus its bias row at O. Its left operand is the launched activations (the cast is the identity on the extended
  reals); its right operand is what the weight region left, wmu + sp(wrho) · ew entry by entry; its bias row is the
  host's bmu + sp(brho) · eb.
-/
import proofs.«132240_j4930622456479_2_alg».proof.Proof.KIRun
import proofs.«132240_j4930622456479_2_alg».proof.Proof.KIValue0
import proofs.«132240_j4930622456479_2_alg».proof.Proof.KIValue1
import proofs.«132240_j4930622456479_2_alg».proof.Proof.KIAcc1
import proofs.«132240_j4930622456479_2_alg».proof.Proof.KIHostVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

end Cert.KernelIdeal.Hand

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg)

/-- The launched weight arrays, as functions. -/
abbrev wmuL (c : Dev nD) : S4096x4096.Idx → EReal := m ((c : Thread nD τ).loc main_arg1)
abbrev wrhoL (c : Dev nD) : S4096x4096.Idx → EReal := m ((c : Thread nD τ).loc main_arg2)
abbrev ewL (c : Dev nD) : S4096x4096.Idx → EReal := m ((c : Thread nD τ).loc main_arg5)

/-- The specification at the launched arrays. -/
abbrev GK (c : Dev nD) : S8192x4096.Idx → EReal :=
  Cert.Spec.G (xL m c) (wmuL m c) (wrhoL m c) (ewL m c) (bmuL m c) (brhoL m c) (ebL m c)

/-- What the matrix-product region is entered with in its right operand: the sampled weights. -/
theorem VE1_v0_eq (c : Dev nD) :
    VE1 m ρ c main_v0 = (fun j => wmuL m c j + Cert.Spec.sp (wrhoL m c j) * ewL m c j) :=
  (VE1_v0 m ρ c).trans (final0_eq (VE0 m ρ) c (wmuL m c) (wrhoL m c) (ewL m c) rfl rfl rfl)

/-- At a position with k = 3 the output block holds the specification's entries. -/
theorem hout (c : Dev nD) (t : Fin cfg1.N) (h3 : t.val % 4 = 3) (r q : Fin 1024) :
    (outsAt1 (F := Ideal) (VE1 m ρ) c t.val t.isLt).1 (ix2 r q)
      = GK m c (ix2 (⟨1024 * (t.val / 16) + r.val, orow_lt t r⟩ : Fin 8192) (⟨1024 * (t.val / 4 % 4) + q.val, ocol_lt t q⟩ : Fin 4096)) := by
  have hx : VE1 m ρ c main_v5 = xL m c := funext (VE1_v5_apply m ρ c)
  rw [out1_apply (VE1 m ρ) c (xL m c) (fun j => wmuL m c j + Cert.Spec.sp (wrhoL m c j) * ewL m c j)
    (VE1 m ρ c main_v4 : S1x4096.Idx → EReal) hx (VE1_v0_eq m ρ c) rfl t h3 r q]
  rw [VE1_v4_apply m ρ c]
  exact (Cert.Spec.G_apply _ _ _ _ _ _ _ _ _).symm

/-- The output buffer at the end of the run. -/
theorem out_eq (c : Dev nD) : (Hand.W4 m ρ c (Proc.devRef .tc main_v6) : S8192x4096.Idx → EReal) = GK m c :=
  (W4_arr m ρ c 3).trans (final1_of (VE1 m ρ) (GK m) (hout m ρ) c)

end Cert.KernelIdeal.Val

end
-- ==== Proof.RefIsG.lean ====
/-
  The reference program's result is the function `Cert.Spec.G` of its seven argument arrays, at every index, over the
  extended reals: the last stage of the reference's run, read at an index through the generated stage-by-stage lemmas, is
  the contraction over the 4096 input features of the activations against the reparameterised weights, plus the
  reparameterised bias of the output feature.
-/
import proofs.«132240_j4930622456479_2_alg».proof.Proof.Spec
import proofs.«132240_j4930622456479_2_alg».proof.Proof.Gen.ReferenceIdeal.Read

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's last stage is `G` (arguments in the program's order: activations, weight mean, weight rho, bias
    mean, bias rho, weight noise, bias noise). -/
theorem ref_val (x0 : FVec Ideal S8192x4096 .f32) (x1 x2 : FVec Ideal S4096x4096 .f32)
    (x3 x4 : FVec Ideal S4096 .f32) (x5 : FVec Ideal S4096x4096 .f32)
    (x6 : FVec Ideal S4096 .f32) :
    val_main_v9 (F := Ideal) x0 x1 x2 x3 x4 x5 x6 = Cert.Spec.G x0 x1 x2 x5 x3 x4 x6 := by
  funext i
  -- the operand indices of the contraction and of the two broadcasts, by coordinates
  have el : ∀ k : Fin 4096, lidx_main_v6 i k = ix2 (⟨(i 0).val, idx2_lt0 i⟩ : Fin 8192) k :=
    fun k => funext fun a => match a with | ⟨0, _⟩ => rfl | ⟨1, _⟩ => rfl
  have er : ∀ k : Fin 4096, ridx_main_v6 i k = ix2 (⟨(i 1).val, idx2_lt1 i⟩ : Fin 4096) k :=
    fun k => funext fun a => match a with | ⟨0, _⟩ => rfl | ⟨1, _⟩ => rfl
  have eb : idx_main_v7 (idx_main_v8 i) = ix1 (⟨(i 1).val, idx2_lt1 i⟩ : Fin 4096) :=
    funext fun a => match a with | ⟨0, _⟩ => rfl
  rw [val_main_v9_apply, val_main_v6_apply, val_main_v8_apply, val_main_v7_apply, eb]
  simp only [el, er]
  rfl

/-- The term the reference's run states for its result is `G` of the arguments. -/
theorem ref_eq (x0 : FVec Ideal S8192x4096 .f32) (x1 x2 : FVec Ideal S4096x4096 .f32)
    (x3 x4 : FVec Ideal S4096 .f32) (x5 : FVec Ideal S4096x4096 .f32)
    (x6 : FVec Ideal S4096 .f32) :
    (addf (F := Ideal) (Host.dotGeneral dot_S8192x4096_S4096x4096_S8192x4096_1_1_0_0_n_n none (x0) (addf (x1) (mulf (select (cmpf (F := Ideal) .une (subf (x2) (broadcastInDim S4096x4096 ![] bcast_S_S4096x4096 (constant S_ .f32 0x00000000#32))) (subf (x2) (broadcastInDim S4096x4096 ![] bcast_S_S4096x4096 (constant S_ .f32 0x00000000#32)))) (addf (x2) (broadcastInDim S4096x4096 ![] bcast_S_S4096x4096 (constant S_ .f32 0x00000000#32))) (addf (maximumf (x2) (broadcastInDim S4096x4096 ![] bcast_S_S4096x4096 (constant S_ .f32 0x00000000#32))) (Host.log1p (Host.exp (Host.negf (Host.absf (subf (x2) (broadcastInDim S4096x4096 ![] bcast_S_S4096x4096 (constant S_ .f32 0x00000000#32))))))))) (x5)))) (broadcastInDim S8192x4096 ![0, 1] bcast_S1x4096_S8192x4096_0_1 (broadcastInDim S1x4096 ![1] bcast_S4096_S1x4096_1 (addf (x3) (mulf (select (cmpf (F := Ideal) .une (subf (x4) (broadcastInDim S4096 ![] bcast_S_S4096 (constant S_ .f32 0x00000000#32))) (subf (x4) (broadcastInDim S4096 ![] bcast_S_S4096 (constant S_ .f32 0x00000000#32)))) (addf (x4) (broadcastInDim S4096 ![] bcast_S_S4096 (constant S_ .f32 0x00000000#32))) (addf (maximumf (x4) (broadcastInDim S4096 ![] bcast_S_S4096 (constant S_ .f32 0x00000000#32))) (Host.log1p (Host.exp (Host.negf (Host.absf (subf (x4) (broadcastInDim S4096 ![] bcast_S_S4096 (constant S_ .f32 0x00000000#32))))))))) (x6))))) : FVec Ideal S8192x4096 .f32)
      = Cert.Spec.G x0 x1 x2 x5 x3 x4 x6 :=
  (val_main_v9_eq (F := Ideal) x0 x1 x2 x3 x4 x5 x6).trans (ref_val x0 x1 x2 x3 x4 x5 x6)

end Cert.RefSide

end
-- ==== Proof.lean ====
/-
  A Bayesian linear layer: from activations x [8192, 4096], weight parameters wmu, wrho, eps_w [4096, 4096] and bias
  parameters bmu, brho, eps_b [4096], the layer samples  W = wmu + sp(wrho) · eps_w  and  b = bmu + sp(brho) · eps_b
  (sp the softplus, spelled  max(x, 0) + log1p(exp(−|x|))  behind a test x ≠ x that no extended real passes) and returns
  x · Wᵀ + b.

  The kernel computes W in one launch (pointwise over 512 x 1024 blocks, rounded to a shorter float format), b and a
  rounded copy of x on the host, and the product in a second launch over an 8 x 4 x 4 grid: the third grid axis walks the
  contracted dimension in four blocks of 1024, adding each block product into an accumulator that is zeroed at the first
  block and, at the last, stored with the bias row added. The reference is one contraction over all 4096 terms plus the
  broadcast bias.

  Over the extended reals a change of float format is the identity, so both programs compute, at entry (T, O),
      Σ_{k < 4096} x(T, k) · (wmu(O, k) + sp(wrho(O, k)) · eps_w(O, k))  +  (bmu(O) + sp(brho(O)) · eps_b(O)).
  The kernel's side reaches it as (((0 + S₀) + S₁) + S₂) + S₃ with S_s the s-th run of 1024 terms; the two agree by
  0 + a = a and the associativity of addition, which hold on all extended reals: no finiteness of the inputs is used.
  The kernel's body writes the negation in the softplus as 0 − |x| and its never-true test in the ordered form; both
  are the host's on the extended reals.

  Each program runs to the end without a fault and leaves its argument arrays as launched: for the two kernel programs
  by running the weight region, the two host stretches and the matrix-product region in turn (the matrix-product
  region's invariant carries the accumulator from one grid position to the next); for the reference by its run of host
  operations. The idealization changes nothing in the printed kernel, so there is nothing to preserve.
-/
import proofs.«132240_j4930622456479_2_alg».proof.Defs
import proofs.«132240_j4930622456479_2_alg».proof.Proof.Gen.Kernel
import proofs.«132240_j4930622456479_2_alg».proof.Proof.Gen.KernelIdeal
import proofs.«132240_j4930622456479_2_alg».proof.Proof.Gen.ReferenceIdeal
import proofs.«132240_j4930622456479_2_alg».proof.Proof.Gen.ReferenceIdeal.Run
import proofs.«132240_j4930622456479_2_alg».proof.Proof.Gen.ReferenceIdeal.Read
import proofs.«132240_j4930622456479_2_alg».proof.Proof.Gen.Pre_finite_inputs
import proofs.«132240_j4930622456479_2_alg».proof.Proof.KRun
import proofs.«132240_j4930622456479_2_alg».proof.Proof.KIRun
import proofs.«132240_j4930622456479_2_alg».proof.Proof.KIBridge
import proofs.«132240_j4930622456479_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the reference: its run of host operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments both idealized programs end with the specification in their result
    array: the kernel's output buffer by the run of its four segments, the reference's by its run read one operation at
    a time. -/
theorem algebraic : Cert.algebraic_KernelIdeal_ReferenceIdeal := by
  intro m ρ m' ρ' _ hagree
  refine ⟨fun c => Cert.KernelIdeal.Val.GK m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v6 (by decide))).trans (Cert.KernelIdeal.Val.out_eq m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact Cert.RefSide.ref_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
